-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S50000x64 .f32) (main_arg1 : IVec S800000 32) (main_arg2 : IVec S800000 32) (main_arg3 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S50000x64 : Shape := ⟨2, ![50000, 64]⟩
abbrev S800000 : Shape := ⟨1, ![800000]⟩
abbrev S64x64 : Shape := ⟨2, ![64, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩

abbrev nBuf : Space → Nat
  | .hbm => 49
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S_, .f32⟩
  | .hbm, ⟨5, _⟩ => ⟨S800000, .f32⟩
  | .hbm, ⟨6, _⟩ => ⟨S_, .f32⟩
  | .hbm, ⟨7, _⟩ => ⟨S50000, .f32⟩
  | .hbm, ⟨8, _⟩ => ⟨S800000x1, .i32⟩
  | .hbm, ⟨9, _⟩ => ⟨S50000, .f32⟩
  | .hbm, ⟨10, _⟩ => ⟨S_, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S64x64, .f32⟩
  | .hbm, ⟨48, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S5000x64_S5000x64 : S5000x64.ShapeCasts S5000x64
  transposes_S64x64_S64x64_1_0 : S64x64.Transposes [1, 0] S64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S_, .f32⟩
  | .hbm, ⟨5, _⟩ => ⟨S800000, .f32⟩
  | .hbm, ⟨6, _⟩ => ⟨S_, .f32⟩
  | .hbm, ⟨7, _⟩ => ⟨S50000, .f32⟩
  | .hbm, ⟨8, _⟩ => ⟨S800000x1, .i32⟩
  | .hbm, ⟨9, _⟩ => ⟨S50000, .f32⟩
  | .hbm, ⟨10, _⟩ => ⟨S_, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x64, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S64x64, .f32⟩
  | .hbm, ⟨53, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.ResultRun.lean ====
/-
  Every fair execution of the kernel program ends with its result array holding what the last launch left there.

  The program is nine segments: host operations, a scaling launch, host operations, two scaling launches, host
  operations, the projecting launch. The contents of every buffer at each boundary are a fold through the segments from
  the launch memory; the last boundary's contents are `W9`. The execution terminates without a fault in a state whose
  every unscoped buffer holds `W9`'s contents, so the result buffer holds `W9` at the result, and the four argument
  arrays, which no segment writes, hold what they were launched with.
-/
import proofs.«135309_j20340965114307_1_alg».proof.Proof.Gen.KernelIdeal.Frame

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v32) = W9 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v32 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.Dense

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.Payloads.lean ====
/-
  What each kernel body computes on one block of 5000 nodes, read at an entry, at the exact extended reals.

  The three scaling bodies load a block `x0` of rows and the block `x1` of the same nodes' factors (a column), spread the
  column along the 64 lanes and multiply: entry `(p, q)` is `x0 (p, q) * x1 (p, 0)`. (Their casts between equal shapes
  change nothing.)

  The projecting body scales the rows the same way, narrows both operands to a shorter float format (the identity on
  exact values) and multiplies by the `64 x 64` matrix `x2` on the matrix unit into a zero accumulator: entry `(p, c)` is
  the sum over `k` of `(x0 (p, k) * x1 (p, 0)) * x2 (k, c)`.
-/
import proofs.«135309_j20340965114307_1_alg».proof.Proof.Gen.KernelIdeal.Skeleton
import proofs.«135309_j20340965114307_1_alg».proof.Proof.LibRowLayout
import proofs.«135309_j20340965114307_1_alg».proof.Proof.LibPlainMatmul
import Idealize.ShloMosaic.Lib.ValueIdx
import Idealize.ShloMosaic.Lib.Pipeline.Value

noncomputable section

open scoped BigOperators

namespace Cert.KernelIdeal.Blocks

open Idealize.ShloMosaic Idealize.ShloMosaic.ValueIdx Cert.KernelIdeal Cert.KernelIdeal.Gen

/-- The factors' column spread along the lanes, after the body's two casts between equal shapes: row `p`'s factor. -/
theorem spread_apply (x1 : Vec Ideal S5000x1 .f32) (p : Fin 5000) (q : Fin 64) :
    broadcastTo S5000x64 (shapeCast S5000x1 (shapeCast S5000x1 x1 shapeCasts_S5000x1_S5000x1) shapeCasts_S5000x1_S5000x1)
      broadcasts_S5000x1_S5000x64 (ix2 p q) = x1 (ix2 p (0 : Fin 1)) := by
  rw [Cert.RowLayout.bcastCol_apply, shapeCast_self, shapeCast_self]

/-- The first scaling body. -/
theorem scale0_apply (x0 : Vec Ideal S5000x64 .f32) (x1 : Vec Ideal S5000x1 .f32) (p : Fin 5000) (q : Fin 64) :
    k0_pay1 (F := Ideal) x0 x1 (ix2 p q) = x0 (ix2 p q) * x1 (ix2 p (0 : Fin 1)) := by
  show mulf (F := Ideal) x0 (broadcastTo S5000x64 (shapeCast S5000x1 (shapeCast S5000x1 x1 shapeCasts_S5000x1_S5000x1)
    shapeCasts_S5000x1_S5000x1) broadcasts_S5000x1_S5000x64) (ix2 p q) = _
  rw [mulf_apply, spread_apply]

/-- The second scaling body (it also casts the rows' block to its own shape). -/
theorem scale1_apply (x0 : Vec Ideal S5000x64 .f32) (x1 : Vec Ideal S5000x1 .f32) (p : Fin 5000) (q : Fin 64) :
    k1_pay1 (F := Ideal) x0 x1 (ix2 p q) = x0 (ix2 p q) * x1 (ix2 p (0 : Fin 1)) := by
  show mulf (F := Ideal) (shapeCast S5000x64 x0 shapeCasts_S5000x64_S5000x64) (broadcastTo S5000x64 (shapeCast S5000x1
    (shapeCast S5000x1 x1 shapeCasts_S5000x1_S5000x1) shapeCasts_S5000x1_S5000x1) broadcasts_S5000x1_S5000x64) (ix2 p q) = _
  rw [mulf_apply, spread_apply, shapeCast_self]

/-- The third scaling body. -/
theorem scale2_apply (x0 : Vec Ideal S5000x64 .f32) (x1 : Vec Ideal S5000x1 .f32) (p : Fin 5000) (q : Fin 64) :
    k2_pay1 (F := Ideal) x0 x1 (ix2 p q) = x0 (ix2 p q) * x1 (ix2 p (0 : Fin 1)) := by
  show mulf (F := Ideal) (shapeCast S5000x64 x0 shapeCasts_S5000x64_S5000x64) (broadcastTo S5000x64 (shapeCast S5000x1
    (shapeCast S5000x1 x1 shapeCasts_S5000x1_S5000x1) shapeCasts_S5000x1_S5000x1) broadcasts_S5000x1_S5000x64) (ix2 p q) = _
  rw [mulf_apply, spread_apply, shapeCast_self]

/-! ## The matrix unit's record places the coordinates as a plain product does -/

theorem dot_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem dot_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The projecting body: the scaled rows times the matrix. -/
theorem project_apply (x0 : Vec Ideal S5000x64 .f32) (x1 : Vec Ideal S5000x1 .f32) (x2 : Vec Ideal S64x64 .f32)
    (p : Fin 5000) (c : Fin 64) :
    k3_pay1 (F := Ideal) x0 x1 x2 (ix2 p c) = ∑ k : Fin 64, (x0 (ix2 p k) * x1 (ix2 p (0 : Fin 1))) * x2 (ix2 k c) := by
  show matmul (F := Ideal) dot_S5000x64_S64x64_S5000x64_1_0_0_1_n_n none
      (truncf .bf16 (mulf (F := Ideal) (shapeCast S5000x64 x0 shapeCasts_S5000x64_S5000x64) (broadcastTo S5000x64 (shapeCast S5000x1
        (shapeCast S5000x1 x1 shapeCasts_S5000x1_S5000x1) shapeCasts_S5000x1_S5000x1) broadcasts_S5000x1_S5000x64)) bitsLt_bf16_f32)
      (truncf .bf16 (shapeCast S64x64 x2 shapeCasts_S64x64_S64x64) bitsLt_bf16_f32)
      (constant (F := Ideal) S5000x64 .f32 0x00000000#32) (ix2 p c) = _
  rw [Cert.PlainMatmul.matmul_zero_apply dot_S5000x64_S64x64_S5000x64_1_0_0_1_n_n rfl rfl dot_lhs0 dot_lhs1 dot_rhs0 dot_rhs1]
  refine Finset.sum_congr rfl fun k _ => ?_
  show mulf (F := Ideal) (shapeCast S5000x64 x0 shapeCasts_S5000x64_S5000x64) (broadcastTo S5000x64 (shapeCast S5000x1
        (shapeCast S5000x1 x1 shapeCasts_S5000x1_S5000x1) shapeCasts_S5000x1_S5000x1) broadcasts_S5000x1_S5000x64) (ix2 p k)
      * shapeCast S64x64 x2 shapeCasts_S64x64_S64x64 (ix2 k c) = _
  rw [mulf_apply, spread_apply, shapeCast_self, shapeCast_self]

end Cert.KernelIdeal.Blocks

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.Spec.lean ====
/-
  The two dense steps of a symmetric-normalised graph propagation, as functions of whole arrays at the exact extended reals.

  Nodes carry 64 features: an array `[50000, 64]`, one row per node. A node's degree factor is kept as a column
  `[50000, 1]`.

  * `rowScale h n`: row `p` of `h` multiplied, lane by lane, by node `p`'s factor `n p`.
  * `project h w`: every row of `h` multiplied by the `64 x 64` matrix `w`: entry `(p, c)` is the sum over `k` of
    `h (p, k) * w (k, c)`.

  Both are stated index by index; a host program reaches each by one spelling (a multiply by the column broadcast along
  both axes; a matrix product), proved equal here. The sparse step between them (gather the rows of the source nodes, add
  them into the rows of the destination nodes) is the same host expression on both sides of the comparison and is never
  opened. Nothing here mentions a program.
-/
import proofs.«135309_j20340965114307_1_alg».proof.Proof.LibHostRowOps

noncomputable section

open scoped BigOperators

namespace Cert.GraphProp

open Idealize.ShloMosaic Idealize.ShloMosaic.ValueIdx

/-- One row of 64 features per node. -/
abbrev NodeRows : Shape := ⟨2, ![50000, 64]⟩
/-- One factor per node, kept as a column. -/
abbrev NodeCol : Shape := ⟨2, ![50000, 1]⟩
/-- The projection's matrix. -/
abbrev Weights : Shape := ⟨2, ![64, 64]⟩

/-- Row `p` of `h` times node `p`'s factor. -/
def rowScale (h : FVec Ideal NodeRows .f32) (n : FVec Ideal NodeCol .f32) : FVec Ideal NodeRows .f32 :=
  fun i => h i * n (ix2 (⟨(i 0).val, idx2_lt0 i⟩ : Fin 50000) (0 : Fin 1))

theorem rowScale_apply (h : FVec Ideal NodeRows .f32) (n : FVec Ideal NodeCol .f32) (p : Fin 50000) (q : Fin 64) :
    rowScale h n (ix2 p q) = h (ix2 p q) * n (ix2 p (0 : Fin 1)) := rfl

/-- Every row of `h` times the matrix `w`. -/
def project (h : FVec Ideal NodeRows .f32) (w : FVec Ideal Weights .f32) : FVec Ideal NodeRows .f32 :=
  fun i => ∑ k : Fin 64, h (ix2 (⟨(i 0).val, idx2_lt0 i⟩ : Fin 50000) k) * w (ix2 k (⟨(i 1).val, idx2_lt1 i⟩ : Fin 64))

theorem project_apply (h : FVec Ideal NodeRows .f32) (w : FVec Ideal Weights .f32) (p : Fin 50000) (c : Fin 64) :
    project h w (ix2 p c) = ∑ k : Fin 64, h (ix2 p k) * w (ix2 k c) := rfl

/-- The host's spelling of the row scaling: a multiply by the column broadcast along both axes. -/
theorem hostScale_eq (h : FVec Ideal NodeRows .f32) (n : FVec Ideal NodeCol .f32)
    (hb : NodeCol.BroadcastsInDim NodeRows ![0, 1]) :
    mulf h (broadcastInDim NodeRows ![0, 1] hb n) = rowScale h n := by
  funext i
  obtain ⟨p, q, rfl⟩ : ∃ (p : Fin 50000) (q : Fin 64), i = ix2 p q := ⟨i 0, i 1, eq_ix2 i⟩
  rw [mulf_apply, Cert.HostRowOps.bcastColHost_apply, rowScale_apply]

/-- The host's spelling of the projection: a matrix product whose record contracts the rows' lanes with the matrix's rows. -/
theorem hostProject_eq (D : DotDims NodeRows Weights NodeRows)
    (hr : D.contr.rank = 1) (hs : D.contr.size ⟨0, by omega⟩ = 64)
    (hl0 : ∀ (j : NodeRows.Idx) (q : D.contr.Idx), (D.lhsIdx j q 0).val = (j 0).val)
    (hl1 : ∀ (j : NodeRows.Idx) (q : D.contr.Idx), (D.lhsIdx j q 1).val = (q ⟨0, by omega⟩).val)
    (hr0 : ∀ (j : NodeRows.Idx) (q : D.contr.Idx), (D.rhsIdx j q 0).val = (q ⟨0, by omega⟩).val)
    (hr1 : ∀ (j : NodeRows.Idx) (q : D.contr.Idx), (D.rhsIdx j q 1).val = (j 1).val)
    (prec : Option ContractPrecision) (h : FVec Ideal NodeRows .f32) (w : FVec Ideal Weights .f32) :
    Host.dotGeneral (F := Ideal) D prec h w = project h w := by
  funext i
  obtain ⟨p, c, rfl⟩ : ∃ (p : Fin 50000) (c : Fin 64), i = ix2 p c := ⟨i 0, i 1, eq_ix2 i⟩
  rw [Cert.HostRowOps.hostDot_apply D hr hs hl0 hl1 hr0 hr1, project_apply]

end Cert.GraphProp

end
-- ==== Proof.FirstScaling.lean ====
/-
  The first scaling launch, as one function of whole arrays.

  The launch walks the 50000 nodes in 10 blocks of 5000. At block `t` it reads rows `5000 t … 5000 t + 4999` of its
  input and the same nodes' factors, and writes the scaled rows to the same rows of its output. A block's entry
  `(p, q)` therefore sits at array row `5000 t + p`, lane `q`, for the input and for the output alike, and its factor
  at column entry `5000 t + p`. The blocks tile the output, so after the launch the output array is the input with
  every row multiplied by its node's factor.
-/
import proofs.«135309_j20340965114307_1_alg».proof.Proof.Gen.KernelIdeal.Frame
import proofs.«135309_j20340965114307_1_alg».proof.Proof.Payloads
import proofs.«135309_j20340965114307_1_alg».proof.Proof.Spec
import Idealize.ShloMosaic.Lib.Pipeline.Value

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.GraphProp
open Idealize.ShloMosaic.Pipeline (Dat)

variable (V : (c : Dev nD) → (b : Ref sig .tc) → Buf (Elt Ideal) ((c : Thread nD τ).loc b))

theorem origin0 : (![0, 0] : Fin 2 → Nat) = fun _ => 0 := funext fun a => by fin_cases a <;> rfl

/-- The launch's index maps, decided over its ten points: input rows, factors and output rows all move with the point;
    no map moves along the lanes. -/
theorem maps0 : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (0 : Fin 2) = t.val ∧ win0_2.index t (1 : Fin 2) = 0 :=
  (by decide +kernel : ∀ t : Fin grid0.N, _)

/-- One entry of one block: the body's value at `y` is the scaled array's entry at `i` once the loaded blocks hold the
    array's entry `i` and its row's factor. -/
theorem scaled0_entry (A : FVec Ideal NodeRows .f32) (N : FVec Ideal NodeCol .f32)
    (x0 : Vec Ideal S5000x64 .f32) (x1 : Vec Ideal S5000x1 .f32) (y : S5000x64.Idx) (i : NodeRows.Idx)
    (h0 : x0 y = A i)
    (h1 : x1 (ix2 (⟨(y 0).val, idx2_lt0 y⟩ : Fin 5000) (0 : Fin 1)) = N (ix2 (⟨(i 0).val, idx2_lt0 i⟩ : Fin 50000) (0 : Fin 1))) :
    k0_pay1 (F := Ideal) x0 x1 y = rowScale A N i := by
  obtain ⟨p, q, rfl⟩ : ∃ (p : Fin 5000) (q : Fin 64), y = ix2 p q := ⟨y 0, y 1, eq_ix2 y⟩
  rw [Blocks.scale0_apply]
  show x0 (ix2 p q) * x1 (ix2 p (0 : Fin 1)) = A i * N (ix2 (⟨(i 0).val, idx2_lt0 i⟩ : Fin 50000) (0 : Fin 1))
  rw [h0, ← h1]

/-- What point `t` writes back is block `t` of the scaled input. -/
theorem scaled0_flushed (c : Dev nD) (t : Fin cfg0.N) :
    (dat0 V c).flushed 2 t = ((cfg0.win 2).blk t).view.read (Elt Ideal) (rowScale (V c main_arg0) (V c main_v7)) := by
  show (cfg0.win 2).cut (grid0.coords t) ((dat0 V c).after 2 t) = _
  rw [after0_2]
  unfold out0_2
  rw [View.canon_unit_zero origin0]
  simp only [View.ld_unit_zero (S := S5000x64) origin0, View.ld_unit_zero (S := S5000x1) origin0]
  obtain ⟨e0, e1, e2, e3, e4, e5⟩ := maps0 t
  funext j
  have hj0 : (j 0).val < 5000 := (j 0).isLt
  have hj1 : (j 1).val < 64 := (j 1).isLt
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (⟨(j 0).val, hj0⟩ : Fin 5000) (0 : Fin 1))
      = ix2 (⟨((((cfg0.win 2).blk t).view.emb j) 0).val, idx2_lt0 (n0 := 50000) (n1 := 64) _⟩ : Fin 50000) (0 : Fin 1) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  exact scaled0_entry (V c main_arg0) (V c main_v7) (iblk0 V c 0 t) (iblk0 V c 1 t) j (((cfg0.win 2).blk t).view.emb j)
    (congrArg (V c main_arg0) h0) (congrArg (V c main_v7) h1)

/-- An index of the output array is in point `t`'s block iff each coordinate is in the block's range on its axis. -/
theorem scaled0_mem (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v8).slice (win0_2.rect t)).set ↔ _
  rw [View.set_slice_whole, Rect.mem_set_unit]
  exact Iff.rfl

/-- Every row of the output is in some block: row `r` in the block of point `r / 5000`. -/
theorem scaled0_cover (i : S50000x64.Idx) :
    ∃ t : Fin cfg0.N, (cfg0.win 2).flush t = true ∧ i ∈ ((cfg0.win 2).blk t).view.set := by
  have hN : grid0.N = 10 := N_0
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show _ < grid0.N; rw [hN]; omega⟩, rfl⟩
  obtain ⟨-, -, -, -, e4, e5⟩ := maps0 t
  refine ⟨t, flush0_2 t, ?_⟩
  rw [scaled0_mem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the launch its output array is its input with every row multiplied by its node's factor. -/
theorem scaled0_array (c : Dev nD) :
    (dat0 V c).arrAt 2 cfg0.N = rowScale (V c main_arg0) (V c main_v7) :=
  (dat0 V c).arrAt_eq_of_cover 2 _ (fun t _ => scaled0_flushed V c t) scaled0_cover

end Cert.KernelIdeal.Dense

end
-- ==== Proof.SecondScaling.lean ====
/-
  The second scaling launch, as one function of whole arrays.

  The launch walks the 50000 nodes in 10 blocks of 5000. At block `t` it reads rows `5000 t … 5000 t + 4999` of its
  input and the same nodes' factors, and writes the scaled rows to the same rows of its output. A block's entry
  `(p, q)` therefore sits at array row `5000 t + p`, lane `q`, for the input and for the output alike, and its factor
  at column entry `5000 t + p`. The blocks tile the output, so after the launch the output array is the input with
  every row multiplied by its node's factor.
-/
import proofs.«135309_j20340965114307_1_alg».proof.Proof.Gen.KernelIdeal.Frame
import proofs.«135309_j20340965114307_1_alg».proof.Proof.Payloads
import proofs.«135309_j20340965114307_1_alg».proof.Proof.Spec
import Idealize.ShloMosaic.Lib.Pipeline.Value

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.GraphProp
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-- The launch's index maps, decided over its ten points: input rows, factors and output rows all move with the point;
    no map moves along the lanes. -/
theorem maps1 : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

/-- One entry of one block: the body's value at `y` is the scaled array's entry at `i` once the loaded blocks hold the
    array's entry `i` and its row's factor. -/
theorem scaled1_entry (A : FVec Ideal NodeRows .f32) (N : FVec Ideal NodeCol .f32)
    (x0 : Vec Ideal S5000x64 .f32) (x1 : Vec Ideal S5000x1 .f32) (y : S5000x64.Idx) (i : NodeRows.Idx)
    (h0 : x0 y = A i)
    (h1 : x1 (ix2 (⟨(y 0).val, idx2_lt0 y⟩ : Fin 5000) (0 : Fin 1)) = N (ix2 (⟨(i 0).val, idx2_lt0 i⟩ : Fin 50000) (0 : Fin 1))) :
    k1_pay1 (F := Ideal) x0 x1 y = rowScale A N i := by
  obtain ⟨p, q, rfl⟩ : ∃ (p : Fin 5000) (q : Fin 64), y = ix2 p q := ⟨y 0, y 1, eq_ix2 y⟩
  rw [Blocks.scale1_apply]
  show x0 (ix2 p q) * x1 (ix2 p (0 : Fin 1)) = A i * N (ix2 (⟨(i 0).val, idx2_lt0 i⟩ : Fin 50000) (0 : Fin 1))
  rw [h0, ← h1]

/-- What point `t` writes back is block `t` of the scaled input. -/
theorem scaled1_flushed (c : Dev nD) (t : Fin cfg1.N) :
    (dat1 V c).flushed 2 t = ((cfg1.win 2).blk t).view.read (Elt Ideal) (rowScale (V c main_v18) (V c main_v7)) := by
  show (cfg1.win 2).cut (grid1.coords t) ((dat1 V c).after 2 t) = _
  rw [after1_2]
  unfold out1_2
  rw [View.canon_unit_zero origin1]
  simp only [View.ld_unit_zero (S := S5000x64) origin1, View.ld_unit_zero (S := S5000x1) origin1]
  obtain ⟨e0, e1, e2, e3, e4, e5⟩ := maps1 t
  funext j
  have hj0 : (j 0).val < 5000 := (j 0).isLt
  have hj1 : (j 1).val < 64 := (j 1).isLt
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (⟨(j 0).val, hj0⟩ : Fin 5000) (0 : Fin 1))
      = ix2 (⟨((((cfg1.win 2).blk t).view.emb j) 0).val, idx2_lt0 (n0 := 50000) (n1 := 64) _⟩ : Fin 50000) (0 : Fin 1) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  exact scaled1_entry (V c main_v18) (V c main_v7) (iblk1 V c 0 t) (iblk1 V c 1 t) j (((cfg1.win 2).blk t).view.emb j)
    (congrArg (V c main_v18) h0) (congrArg (V c main_v7) h1)

/-- An index of the output array is in point `t`'s block iff each coordinate is in the block's range on its axis. -/
theorem scaled1_mem (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v19).slice (win1_2.rect t)).set ↔ _
  rw [View.set_slice_whole, Rect.mem_set_unit]
  exact Iff.rfl

/-- Every row of the output is in some block: row `r` in the block of point `r / 5000`. -/
theorem scaled1_cover (i : S50000x64.Idx) :
    ∃ t : Fin cfg1.N, (cfg1.win 2).flush t = true ∧ i ∈ ((cfg1.win 2).blk t).view.set := by
  have hN : grid1.N = 10 := N_1
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show _ < grid1.N; rw [hN]; omega⟩, rfl⟩
  obtain ⟨-, -, -, -, e4, e5⟩ := maps1 t
  refine ⟨t, flush1_2 t, ?_⟩
  rw [scaled1_mem]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the launch its output array is its input with every row multiplied by its node's factor. -/
theorem scaled1_array (c : Dev nD) :
    (dat1 V c).arrAt 2 cfg1.N = rowScale (V c main_v18) (V c main_v7) :=
  (dat1 V c).arrAt_eq_of_cover 2 _ (fun t _ => scaled1_flushed V c t) scaled1_cover

end Cert.KernelIdeal.Dense

end
-- ==== Proof.ThirdScaling.lean ====
/-
  The third scaling launch, as one function of whole arrays.

  The launch walks the 50000 nodes in 10 blocks of 5000. At block `t` it reads rows `5000 t … 5000 t + 4999` of its
  input and the same nodes' factors, and writes the scaled rows to the same rows of its output. A block's entry
  `(p, q)` therefore sits at array row `5000 t + p`, lane `q`, for the input and for the output alike, and its factor
  at column entry `5000 t + p`. The blocks tile the output, so after the launch the output array is the input with
  every row multiplied by its node's factor.
-/
import proofs.«135309_j20340965114307_1_alg».proof.Proof.Gen.KernelIdeal.Frame
import proofs.«135309_j20340965114307_1_alg».proof.Proof.Payloads
import proofs.«135309_j20340965114307_1_alg».proof.Proof.Spec
import Idealize.ShloMosaic.Lib.Pipeline.Value

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.GraphProp
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The launch's index maps, decided over its ten points: input rows, factors and output rows all move with the point;
    no map moves along the lanes. -/
theorem maps2 : ∀ t : Fin cfg2.N,
    win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (0 : Fin 2) = t.val ∧ win2_2.index t (1 : Fin 2) = 0 :=
  (by decide +kernel : ∀ t : Fin grid2.N, _)

/-- One entry of one block: the body's value at `y` is the scaled array's entry at `i` once the loaded blocks hold the
    array's entry `i` and its row's factor. -/
theorem scaled2_entry (A : FVec Ideal NodeRows .f32) (N : FVec Ideal NodeCol .f32)
    (x0 : Vec Ideal S5000x64 .f32) (x1 : Vec Ideal S5000x1 .f32) (y : S5000x64.Idx) (i : NodeRows.Idx)
    (h0 : x0 y = A i)
    (h1 : x1 (ix2 (⟨(y 0).val, idx2_lt0 y⟩ : Fin 5000) (0 : Fin 1)) = N (ix2 (⟨(i 0).val, idx2_lt0 i⟩ : Fin 50000) (0 : Fin 1))) :
    k2_pay1 (F := Ideal) x0 x1 y = rowScale A N i := by
  obtain ⟨p, q, rfl⟩ : ∃ (p : Fin 5000) (q : Fin 64), y = ix2 p q := ⟨y 0, y 1, eq_ix2 y⟩
  rw [Blocks.scale2_apply]
  show x0 (ix2 p q) * x1 (ix2 p (0 : Fin 1)) = A i * N (ix2 (⟨(i 0).val, idx2_lt0 i⟩ : Fin 50000) (0 : Fin 1))
  rw [h0, ← h1]

/-- What point `t` writes back is block `t` of the scaled input. -/
theorem scaled2_flushed (c : Dev nD) (t : Fin cfg2.N) :
    (dat2 V c).flushed 2 t = ((cfg2.win 2).blk t).view.read (Elt Ideal) (rowScale (V c main_v19) (V c main_v7)) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S5000x1) origin2]
  obtain ⟨e0, e1, e2, e3, e4, e5⟩ := maps2 t
  funext j
  have hj0 : (j 0).val < 5000 := (j 0).isLt
  have hj1 : (j 1).val < 64 := (j 1).isLt
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (⟨(j 0).val, hj0⟩ : Fin 5000) (0 : Fin 1))
      = ix2 (⟨((((cfg2.win 2).blk t).view.emb j) 0).val, idx2_lt0 (n0 := 50000) (n1 := 64) _⟩ : Fin 50000) (0 : Fin 1) := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega
  exact scaled2_entry (V c main_v19) (V c main_v7) (iblk2 V c 0 t) (iblk2 V c 1 t) j (((cfg2.win 2).blk t).view.emb j)
    (congrArg (V c main_v19) h0) (congrArg (V c main_v7) h1)

/-- An index of the output array is in point `t`'s block iff each coordinate is in the block's range on its axis. -/
theorem scaled2_mem (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v20).slice (win2_2.rect t)).set ↔ _
  rw [View.set_slice_whole, Rect.mem_set_unit]
  exact Iff.rfl

/-- Every row of the output is in some block: row `r` in the block of point `r / 5000`. -/
theorem scaled2_cover (i : S50000x64.Idx) :
    ∃ t : Fin cfg2.N, (cfg2.win 2).flush t = true ∧ i ∈ ((cfg2.win 2).blk t).view.set := by
  have hN : grid2.N = 10 := N_2
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show _ < grid2.N; rw [hN]; omega⟩, rfl⟩
  obtain ⟨-, -, -, -, e4, e5⟩ := maps2 t
  refine ⟨t, flush2_2 t, ?_⟩
  rw [scaled2_mem]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the launch its output array is its input with every row multiplied by its node's factor. -/
theorem scaled2_array (c : Dev nD) :
    (dat2 V c).arrAt 2 cfg2.N = rowScale (V c main_v19) (V c main_v7) :=
  (dat2 V c).arrAt_eq_of_cover 2 _ (fun t _ => scaled2_flushed V c t) scaled2_cover

end Cert.KernelIdeal.Dense

end
-- ==== Proof.Projection.lean ====
/-
  The projecting launch, as one function of whole arrays.

  Like the scaling launches it walks the 50000 nodes in 10 blocks of 5000: at block `t` it reads rows
  `5000 t … 5000 t + 4999` of its input and the same nodes' factors, and it reads the whole `64 x 64` matrix at every
  block. It writes, to the same rows of its output, the scaled rows times the matrix. Entry `(p, c)` of a block depends
  on row `5000 t + p` of the input (all 64 lanes), that node's factor, and column `c` of the matrix. The blocks tile the
  output, so after the launch the output array is the scaled input projected by the matrix.
-/
import proofs.«135309_j20340965114307_1_alg».proof.Proof.Gen.KernelIdeal.Frame
import proofs.«135309_j20340965114307_1_alg».proof.Proof.Payloads
import proofs.«135309_j20340965114307_1_alg».proof.Proof.Spec
import Idealize.ShloMosaic.Lib.Pipeline.Value

set_option maxRecDepth 16384

noncomputable section

open scoped BigOperators

namespace Cert.KernelIdeal.Dense

open Idealize.ShloMosaic Idealize.ShloMosaic.TcCoe Idealize.ShloMosaic.ValueIdx Idealize.SL.Sem
open Cert.KernelIdeal Cert.KernelIdeal.Gen Cert.GraphProp
open Idealize.ShloMosaic.Pipeline (Dat)

variable (V : (c : Dev nD) → (b : Ref sig .tc) → Buf (Elt Ideal) ((c : Thread nD τ).loc b))

theorem origin3 : (![0, 0] : Fin 2 → Nat) = fun _ => 0 := funext fun a => by fin_cases a <;> rfl

/-- The launch's index maps, decided over its ten points: input rows, factors and output rows move with the point, the
    matrix stays put, and no map moves along the lanes. -/
theorem maps3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of one block: the body's value at `y` is the projected array's entry at `i` once the loaded blocks hold
    the array's row of `i`, that row's factor, and the matrix's column of `i`. -/
theorem projected_entry (A : FVec Ideal NodeRows .f32) (N : FVec Ideal NodeCol .f32) (W : FVec Ideal Weights .f32)
    (x0 : Vec Ideal S5000x64 .f32) (x1 : Vec Ideal S5000x1 .f32) (x2 : Vec Ideal S64x64 .f32)
    (y : S5000x64.Idx) (i : NodeRows.Idx)
    (h0 : ∀ k : Fin 64, x0 (ix2 (⟨(y 0).val, idx2_lt0 y⟩ : Fin 5000) k) = A (ix2 (⟨(i 0).val, idx2_lt0 i⟩ : Fin 50000) k))
    (h1 : x1 (ix2 (⟨(y 0).val, idx2_lt0 y⟩ : Fin 5000) (0 : Fin 1)) = N (ix2 (⟨(i 0).val, idx2_lt0 i⟩ : Fin 50000) (0 : Fin 1)))
    (h2 : ∀ k : Fin 64, x2 (ix2 k (⟨(y 1).val, idx2_lt1 y⟩ : Fin 64)) = W (ix2 k (⟨(i 1).val, idx2_lt1 i⟩ : Fin 64))) :
    k3_pay1 (F := Ideal) x0 x1 x2 y = project (rowScale A N) W i := by
  obtain ⟨p, c, rfl⟩ : ∃ (p : Fin 5000) (c : Fin 64), y = ix2 p c := ⟨y 0, y 1, eq_ix2 y⟩
  rw [Blocks.project_apply]
  show ∑ k : Fin 64, (x0 (ix2 p k) * x1 (ix2 p (0 : Fin 1))) * x2 (ix2 k c)
    = ∑ k : Fin 64, rowScale A N (ix2 (⟨(i 0).val, idx2_lt0 i⟩ : Fin 50000) k) * W (ix2 k (⟨(i 1).val, idx2_lt1 i⟩ : Fin 64))
  refine Finset.sum_congr rfl fun k _ => ?_
  have e0 : x0 (ix2 p k) = A (ix2 (⟨(i 0).val, idx2_lt0 i⟩ : Fin 50000) k) := h0 k
  have e1 : x1 (ix2 p (0 : Fin 1)) = N (ix2 (⟨(i 0).val, idx2_lt0 i⟩ : Fin 50000) (0 : Fin 1)) := h1
  have e2 : x2 (ix2 k c) = W (ix2 k (⟨(i 1).val, idx2_lt1 i⟩ : Fin 64)) := h2 k
  rw [e0, e1, e2, rowScale_apply]

/-- What point `t` writes back is block `t` of the scaled and projected input. -/
theorem projected_flushed (c : Dev nD) (t : Fin cfg3.N) :
    (dat3 V c).flushed 3 t
      = ((cfg3.win 3).blk t).view.read (Elt Ideal) (project (rowScale (V c main_v30) (V c main_v7)) (V c main_v31)) := by
  show (cfg3.win 3).cut (grid3.coords t) ((dat3 V c).after 3 t) = _
  rw [after3_3]
  unfold out3_3
  rw [View.canon_unit_zero origin3]
  simp only [View.ld_unit_zero (S := S5000x64) origin3, View.ld_unit_zero (S := S5000x1) origin3,
    View.ld_unit_zero (S := S64x64) origin3]
  obtain ⟨e0, e1, e2, e3, e4, e5, e6, e7⟩ := maps3 t
  funext j
  have hj0 : (j 0).val < 5000 := (j 0).isLt
  have hj1 : (j 1).val < 64 := (j 1).isLt
  have h0 : ∀ k : Fin 64, ((cfg3.win 0).blk t).view.emb (ix2 (⟨(j 0).val, hj0⟩ : Fin 5000) k)
      = ix2 (⟨((((cfg3.win 3).blk t).view.emb j) 0).val, idx2_lt0 (n0 := 50000) (n1 := 64) _⟩ : Fin 50000) k := fun k => by
    have hk : k.val < 64 := k.isLt
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  have h1 : ((cfg3.win 1).blk t).view.emb (ix2 (⟨(j 0).val, hj0⟩ : Fin 5000) (0 : Fin 1))
      = ix2 (⟨((((cfg3.win 3).blk t).view.emb j) 0).val, idx2_lt0 (n0 := 50000) (n1 := 64) _⟩ : Fin 50000) (0 : Fin 1) := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  have h2 : ∀ k : Fin 64, ((cfg3.win 2).blk t).view.emb (ix2 k (⟨(j 1).val, hj1⟩ : Fin 64))
      = ix2 k (⟨((((cfg3.win 3).blk t).view.emb j) 1).val, idx2_lt1 (n0 := 50000) (n1 := 64) _⟩ : Fin 64) := fun k => by
    have hk : k.val < 64 := k.isLt
    funext a; apply Fin.ext
    match a with
    | ⟨0, _⟩ => show win3_2.index t (0 : Fin 2) * 64 + 1 * k.val = k.val; omega
    | ⟨1, _⟩ => show win3_2.index t (1 : Fin 2) * 64 + 1 * (j 1).val = win3_3.index t (1 : Fin 2) * 64 + 1 * (j 1).val; omega
  exact projected_entry (V c main_v30) (V c main_v7) (V c main_v31) (iblk3 V c 0 t) (iblk3 V c 1 t) (iblk3 V c 2 t) j
    (((cfg3.win 3).blk t).view.emb j)
    (fun k => congrArg (V c main_v30) (h0 k)) (congrArg (V c main_v7) h1) (fun k => congrArg (V c main_v31) (h2 k))

/-- An index of the output array is in point `t`'s block iff each coordinate is in the block's range on its axis. -/
theorem projected_mem (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v32).slice (win3_3.rect t)).set ↔ _
  rw [View.set_slice_whole, Rect.mem_set_unit]
  exact Iff.rfl

/-- Every row of the output is in some block: row `r` in the block of point `r / 5000`. -/
theorem projected_cover (i : S50000x64.Idx) :
    ∃ t : Fin cfg3.N, (cfg3.win 3).flush t = true ∧ i ∈ ((cfg3.win 3).blk t).view.set := by
  have hN : grid3.N = 10 := N_3
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show _ < grid3.N; rw [hN]; omega⟩, rfl⟩
  obtain ⟨-, -, -, -, -, -, e6, e7⟩ := maps3 t
  refine ⟨t, flush3_3 t, ?_⟩
  rw [projected_mem]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the launch its output array is its input, every row multiplied by its node's factor, times the matrix. -/
theorem projected_array (c : Dev nD) :
    (dat3 V c).arrAt 3 cfg3.N = project (rowScale (V c main_v30) (V c main_v7)) (V c main_v31) :=
  (dat3 V c).arrAt_eq_of_cover 3 _ (fun t _ => projected_flushed V c t) projected_cover

end Cert.KernelIdeal.Dense

end
-- ==== Proof.ResultValue.lean ====
/-
  What the kernel program's result array holds, as one function of its four arguments.

  Write `f` for the features, `src` and `dst` for the edges' end points, `w` for the weights. The program's host
  prologue counts each node's incoming edges, clamps the count at one and raises it to the power -1/2: the node's factor,
  kept as a column (`factors dst`). One message pass (`pass src dst x`) gathers the rows of `x` at the edges' sources and
  adds them into the rows of the edges' destinations. The program is

      scale, pass, scale, scale, pass, scale-and-project by the transposed weights,

  every scaling by the same factors. The contents of the buffers that matter are followed boundary by boundary: a host
  stretch writes its own results and keeps everything else; a launch writes its output array and keeps everything else,
  the arrays it only reads included. What the host stretches do is the same for every interpretation of the floats, and
  is stated so (the factors, a message pass and the transposition are host expressions that are never opened); what the
  launches write is arithmetic on exact values, and the chain through all seven boundaries is followed there.
-/
import proofs.«135309_j20340965114307_1_alg».proof.Proof.FirstScaling
import proofs.«135309_j20340965114307_1_alg».proof.Proof.SecondScaling
import proofs.«135309_j20340965114307_1_alg».proof.Proof.ThirdScaling
import proofs.«135309_j20340965114307_1_alg».proof.Proof.Projection
import Idealize.ShloMosaic.Lib.StableHlo.Run

set_option maxRecDepth 16384

noncomputable section

namespace Cert.KernelIdeal.Dense

open Idealize.ShloMosaic Idealize.ShloMosaic.TcCoe Idealize.ShloMosaic.ValueIdx Idealize.SL.Sem Idealize.ShloMosaic.StableHlo
open Cert.KernelIdeal Cert.KernelIdeal.Gen Cert.GraphProp
open Idealize.ShloMosaic.Pipeline (Dat)

/-! # The host side, for any interpretation of the floats -/

section AnyFloats

variable {F : FTy → Type} [FloatOps F]

/-- Each node's factor: its number of incoming edges, at least one, to the power -1/2; a column. -/
def factors (dst : IVec S800000 32) : FVec F S50000x1 .f32 :=
  broadcastInDim S50000x1 ![0] bcast_S50000_S50000x1_0 (Host.powf (F := F) (maximumf (F := F) (broadcastInDim S50000 ![] bcast_S_S50000 (id (constant (F := F) S_ .f32 0x3F800000#32))) (Host.scatterAdd (F := F) scatter_S50000_S800000x1_S800000_n_0_0_1 (broadcastInDim S50000 ![] bcast_S_S50000 (constant (F := F) S_ .f32 0x00000000#32)) (broadcastInDim S800000x1 ![0] bcast_S800000_S800000x1_0 dst) (broadcastInDim S800000 ![] bcast_S_S800000 (constant (F := F) S_ .f32 0x3F800000#32)))) (broadcastInDim S50000 ![] bcast_S_S50000 (constant (F := F) S_ .f32 0xBF000000#32)))

/-- One message pass: the rows of `x` at the edges' sources (a negative index counted from the end), added into the rows
    of the edges' destinations, from zero. -/
def pass (src dst : IVec S800000 32) (x : FVec F S50000x64 .f32) : FVec F S50000x64 .f32 :=
  Host.scatterAdd (F := F) scatter_S50000x64_S800000x1_S800000x64_1_0_0_1 (broadcastInDim S50000x64 ![] bcast_S_S50000x64 (constant (F := F) S_ .f32 0x00000000#32)) (broadcastInDim S800000x1 ![0] bcast_S800000_S800000x1_0 dst) (Host.gather gather_S50000x64_S800000x1_S800000x64_1_0_n_n_0_1_164 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The weights with rows and columns exchanged. -/
def transposed (w : FVec F S64x64 .f32) : FVec F S64x64 .f32 :=
  transpose S64x64 [1, 0] w transposes_S64x64_S64x64_1_0

variable (m : (ℓ : Loc nD τ sig) → Buf (Elt F) ℓ) (ρ : Dev nD → PrngReg)

/-! ## The prologue computes the factors and touches no argument -/

theorem prologue_factors (c : Dev nD) : W3 m ρ c (Proc.devRef .tc main_v7) = factors (m ((c : Thread nD τ).loc main_arg2)) := by
  show StableHlo.after hostOps0_2 (StableHlo.after hostOps0_1 (StableHlo.after hostOps0 (W0 m ρ c))) (Proc.devRef .tc main_v7) = _
  repeat after_results
  all_goals rfl
theorem prologue_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  repeat after_results
  all_goals rfl
theorem prologue_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  repeat after_results
  all_goals rfl
theorem prologue_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  repeat after_results
  all_goals rfl
theorem prologue_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  repeat after_results
  all_goals rfl

/-! ## What each launch keeps: the factors' column it only reads, and the arguments it does not touch -/

theorem launch0_factors (c : Dev nD) : W4 m ρ c (Proc.devRef .tc main_v7) = W3 m ρ c (Proc.devRef .tc main_v7) :=
  (W4_arr m ρ c 1).trans (((dat0 (V3 m ρ) c).arrAt_in 1 rfl _).trans (A_eq0 (V3 m ρ) c 1))
theorem launch0_arg1 (c : Dev nD) : W4 m ρ c (Proc.devRef .tc main_arg1) = W3 m ρ c (Proc.devRef .tc main_arg1) :=
  W4_of_ne m ρ c main_arg1 (by decide)
theorem launch0_arg2 (c : Dev nD) : W4 m ρ c (Proc.devRef .tc main_arg2) = W3 m ρ c (Proc.devRef .tc main_arg2) :=
  W4_of_ne m ρ c main_arg2 (by decide)
theorem launch0_arg3 (c : Dev nD) : W4 m ρ c (Proc.devRef .tc main_arg3) = W3 m ρ c (Proc.devRef .tc main_arg3) :=
  W4_of_ne m ρ c main_arg3 (by decide)
theorem launch1_factors (c : Dev nD) : W6 m ρ c (Proc.devRef .tc main_v7) = W5 m ρ c (Proc.devRef .tc main_v7) :=
  (W6_arr m ρ c 1).trans (((dat1 (V5 m ρ) c).arrAt_in 1 rfl _).trans (A_eq1 (V5 m ρ) c 1))
theorem launch1_arg1 (c : Dev nD) : W6 m ρ c (Proc.devRef .tc main_arg1) = W5 m ρ c (Proc.devRef .tc main_arg1) :=
  W6_of_ne m ρ c main_arg1 (by decide)
theorem launch1_arg2 (c : Dev nD) : W6 m ρ c (Proc.devRef .tc main_arg2) = W5 m ρ c (Proc.devRef .tc main_arg2) :=
  W6_of_ne m ρ c main_arg2 (by decide)
theorem launch1_arg3 (c : Dev nD) : W6 m ρ c (Proc.devRef .tc main_arg3) = W5 m ρ c (Proc.devRef .tc main_arg3) :=
  W6_of_ne m ρ c main_arg3 (by decide)
theorem launch2_factors (c : Dev nD) : W7 m ρ c (Proc.devRef .tc main_v7) = W6 m ρ c (Proc.devRef .tc main_v7) :=
  (W7_arr m ρ c 1).trans (((dat2 (V6 m ρ) c).arrAt_in 1 rfl _).trans (A_eq2 (V6 m ρ) c 1))
theorem launch2_arg1 (c : Dev nD) : W7 m ρ c (Proc.devRef .tc main_arg1) = W6 m ρ c (Proc.devRef .tc main_arg1) :=
  W7_of_ne m ρ c main_arg1 (by decide)
theorem launch2_arg2 (c : Dev nD) : W7 m ρ c (Proc.devRef .tc main_arg2) = W6 m ρ c (Proc.devRef .tc main_arg2) :=
  W7_of_ne m ρ c main_arg2 (by decide)
theorem launch2_arg3 (c : Dev nD) : W7 m ρ c (Proc.devRef .tc main_arg3) = W6 m ρ c (Proc.devRef .tc main_arg3) :=
  W7_of_ne m ρ c main_arg3 (by decide)

/-! ## The first message pass: what it writes, what it keeps -/

theorem pass1_rows (c : Dev nD) : W5 m ρ c (Proc.devRef .tc main_v18)
    = pass (W4 m ρ c (Proc.devRef .tc main_arg1)) (W4 m ρ c (Proc.devRef .tc main_arg2)) (W4 m ρ c (Proc.devRef .tc main_v8)) := by
  show StableHlo.after hostOps1 (W4 m ρ c) (Proc.devRef .tc main_v18) = _
  repeat after_results
  all_goals rfl
theorem pass1_factors (c : Dev nD) : W5 m ρ c (Proc.devRef .tc main_v7) = W4 m ρ c (Proc.devRef .tc main_v7) := by
  show StableHlo.after hostOps1 (W4 m ρ c) (Proc.devRef .tc main_v7) = _
  repeat after_results
  all_goals rfl
theorem pass1_arg1 (c : Dev nD) : W5 m ρ c (Proc.devRef .tc main_arg1) = W4 m ρ c (Proc.devRef .tc main_arg1) := by
  show StableHlo.after hostOps1 (W4 m ρ c) (Proc.devRef .tc main_arg1) = _
  repeat after_results
  all_goals rfl
theorem pass1_arg2 (c : Dev nD) : W5 m ρ c (Proc.devRef .tc main_arg2) = W4 m ρ c (Proc.devRef .tc main_arg2) := by
  show StableHlo.after hostOps1 (W4 m ρ c) (Proc.devRef .tc main_arg2) = _
  repeat after_results
  all_goals rfl
theorem pass1_arg3 (c : Dev nD) : W5 m ρ c (Proc.devRef .tc main_arg3) = W4 m ρ c (Proc.devRef .tc main_arg3) := by
  show StableHlo.after hostOps1 (W4 m ρ c) (Proc.devRef .tc main_arg3) = _
  repeat after_results
  all_goals rfl

/-! ## The second message pass and the transposition -/

theorem pass2_rows (c : Dev nD) : W8 m ρ c (Proc.devRef .tc main_v30)
    = pass (W7 m ρ c (Proc.devRef .tc main_arg1)) (W7 m ρ c (Proc.devRef .tc main_arg2)) (W7 m ρ c (Proc.devRef .tc main_v20)) := by
  show StableHlo.after hostOps3 (W7 m ρ c) (Proc.devRef .tc main_v30) = _
  repeat after_results
  all_goals rfl
theorem pass2_weights (c : Dev nD) : W8 m ρ c (Proc.devRef .tc main_v31) = transposed (W7 m ρ c (Proc.devRef .tc main_arg3)) := by
  show StableHlo.after hostOps3 (W7 m ρ c) (Proc.devRef .tc main_v31) = _
  repeat after_results
  all_goals rfl
theorem pass2_factors (c : Dev nD) : W8 m ρ c (Proc.devRef .tc main_v7) = W7 m ρ c (Proc.devRef .tc main_v7) := by
  show StableHlo.after hostOps3 (W7 m ρ c) (Proc.devRef .tc main_v7) = _
  repeat after_results
  all_goals rfl

end AnyFloats

/-! # The chain, on exact values -/

/-- The whole computation. -/
def propagated (f : FVec Ideal S50000x64 .f32) (src dst : IVec S800000 32) (w : FVec Ideal S64x64 .f32) :
    FVec Ideal S50000x64 .f32 :=
  project (rowScale (pass src dst (rowScale (rowScale (pass src dst (rowScale f (factors dst))) (factors dst)) (factors dst)))
    (factors dst)) (transposed w)

variable (m : (ℓ : Loc nD τ sig) → Buf (Elt Ideal) ℓ) (ρ : Dev nD → PrngReg)

/-! ## After the first scaling -/

theorem at4_rows (c : Dev nD) : W4 m ρ c (Proc.devRef .tc main_v8) = (rowScale (m ((c : Thread nD τ).loc main_arg0)) (factors (F := Ideal) (m ((c : Thread nD τ).loc main_arg2)))) := by
  refine (W4_arr m ρ c 2).trans ((scaled0_array (V3 m ρ) c).trans ?_)
  show rowScale (W3 m ρ c (Proc.devRef .tc main_arg0)) (W3 m ρ c (Proc.devRef .tc main_v7)) = _
  rw [prologue_arg0, prologue_factors]
theorem at4_factors (c : Dev nD) : W4 m ρ c (Proc.devRef .tc main_v7) = (factors (F := Ideal) (m ((c : Thread nD τ).loc main_arg2))) :=
  (launch0_factors m ρ c).trans (prologue_factors m ρ c)
theorem at4_arg1 (c : Dev nD) : W4 m ρ c (Proc.devRef .tc main_arg1) = (m ((c : Thread nD τ).loc main_arg1)) :=
  (launch0_arg1 m ρ c).trans (prologue_arg1 m ρ c)
theorem at4_arg2 (c : Dev nD) : W4 m ρ c (Proc.devRef .tc main_arg2) = (m ((c : Thread nD τ).loc main_arg2)) :=
  (launch0_arg2 m ρ c).trans (prologue_arg2 m ρ c)
theorem at4_arg3 (c : Dev nD) : W4 m ρ c (Proc.devRef .tc main_arg3) = (m ((c : Thread nD τ).loc main_arg3)) :=
  (launch0_arg3 m ρ c).trans (prologue_arg3 m ρ c)

/-! ## After the first message pass -/

theorem at5_rows (c : Dev nD) : W5 m ρ c (Proc.devRef .tc main_v18) = (pass (m ((c : Thread nD τ).loc main_arg1)) (m ((c : Thread nD τ).loc main_arg2)) (rowScale (m ((c : Thread nD τ).loc main_arg0)) (factors (F := Ideal) (m ((c : Thread nD τ).loc main_arg2))))) := by
  rw [pass1_rows, at4_rows, at4_arg1, at4_arg2]
theorem at5_factors (c : Dev nD) : W5 m ρ c (Proc.devRef .tc main_v7) = (factors (F := Ideal) (m ((c : Thread nD τ).loc main_arg2))) :=
  (pass1_factors m ρ c).trans (at4_factors m ρ c)
theorem at5_arg1 (c : Dev nD) : W5 m ρ c (Proc.devRef .tc main_arg1) = (m ((c : Thread nD τ).loc main_arg1)) :=
  (pass1_arg1 m ρ c).trans (at4_arg1 m ρ c)
theorem at5_arg2 (c : Dev nD) : W5 m ρ c (Proc.devRef .tc main_arg2) = (m ((c : Thread nD τ).loc main_arg2)) :=
  (pass1_arg2 m ρ c).trans (at4_arg2 m ρ c)
theorem at5_arg3 (c : Dev nD) : W5 m ρ c (Proc.devRef .tc main_arg3) = (m ((c : Thread nD τ).loc main_arg3)) :=
  (pass1_arg3 m ρ c).trans (at4_arg3 m ρ c)

/-! ## After the second scaling -/

theorem at6_rows (c : Dev nD) : W6 m ρ c (Proc.devRef .tc main_v19) = (rowScale (pass (m ((c : Thread nD τ).loc main_arg1)) (m ((c : Thread nD τ).loc main_arg2)) (rowScale (m ((c : Thread nD τ).loc main_arg0)) (factors (F := Ideal) (m ((c : Thread nD τ).loc main_arg2))))) (factors (F := Ideal) (m ((c : Thread nD τ).loc main_arg2)))) := by
  refine (W6_arr m ρ c 2).trans ((scaled1_array (V5 m ρ) c).trans ?_)
  show rowScale (W5 m ρ c (Proc.devRef .tc main_v18)) (W5 m ρ c (Proc.devRef .tc main_v7)) = _
  rw [at5_rows, at5_factors]
theorem at6_factors (c : Dev nD) : W6 m ρ c (Proc.devRef .tc main_v7) = (factors (F := Ideal) (m ((c : Thread nD τ).loc main_arg2))) :=
  (launch1_factors m ρ c).trans (at5_factors m ρ c)
theorem at6_arg1 (c : Dev nD) : W6 m ρ c (Proc.devRef .tc main_arg1) = (m ((c : Thread nD τ).loc main_arg1)) :=
  (launch1_arg1 m ρ c).trans (at5_arg1 m ρ c)
theorem at6_arg2 (c : Dev nD) : W6 m ρ c (Proc.devRef .tc main_arg2) = (m ((c : Thread nD τ).loc main_arg2)) :=
  (launch1_arg2 m ρ c).trans (at5_arg2 m ρ c)
theorem at6_arg3 (c : Dev nD) : W6 m ρ c (Proc.devRef .tc main_arg3) = (m ((c : Thread nD τ).loc main_arg3)) :=
  (launch1_arg3 m ρ c).trans (at5_arg3 m ρ c)

/-! ## After the third scaling -/

theorem at7_rows (c : Dev nD) : W7 m ρ c (Proc.devRef .tc main_v20) = (rowScale (rowScale (pass (m ((c : Thread nD τ).loc main_arg1)) (m ((c : Thread nD τ).loc main_arg2)) (rowScale (m ((c : Thread nD τ).loc main_arg0)) (factors (F := Ideal) (m ((c : Thread nD τ).loc main_arg2))))) (factors (F := Ideal) (m ((c : Thread nD τ).loc main_arg2)))) (factors (F := Ideal) (m ((c : Thread nD τ).loc main_arg2)))) := by
  refine (W7_arr m ρ c 2).trans ((scaled2_array (V6 m ρ) c).trans ?_)
  show rowScale (W6 m ρ c (Proc.devRef .tc main_v19)) (W6 m ρ c (Proc.devRef .tc main_v7)) = _
  rw [at6_rows, at6_factors]
theorem at7_factors (c : Dev nD) : W7 m ρ c (Proc.devRef .tc main_v7) = (factors (F := Ideal) (m ((c : Thread nD τ).loc main_arg2))) :=
  (launch2_factors m ρ c).trans (at6_factors m ρ c)
theorem at7_arg1 (c : Dev nD) : W7 m ρ c (Proc.devRef .tc main_arg1) = (m ((c : Thread nD τ).loc main_arg1)) :=
  (launch2_arg1 m ρ c).trans (at6_arg1 m ρ c)
theorem at7_arg2 (c : Dev nD) : W7 m ρ c (Proc.devRef .tc main_arg2) = (m ((c : Thread nD τ).loc main_arg2)) :=
  (launch2_arg2 m ρ c).trans (at6_arg2 m ρ c)
theorem at7_arg3 (c : Dev nD) : W7 m ρ c (Proc.devRef .tc main_arg3) = (m ((c : Thread nD τ).loc main_arg3)) :=
  (launch2_arg3 m ρ c).trans (at6_arg3 m ρ c)

/-! ## After the second message pass and the transposition -/

theorem at8_rows (c : Dev nD) : W8 m ρ c (Proc.devRef .tc main_v30) = (pass (m ((c : Thread nD τ).loc main_arg1)) (m ((c : Thread nD τ).loc main_arg2)) (rowScale (rowScale (pass (m ((c : Thread nD τ).loc main_arg1)) (m ((c : Thread nD τ).loc main_arg2)) (rowScale (m ((c : Thread nD τ).loc main_arg0)) (factors (F := Ideal) (m ((c : Thread nD τ).loc main_arg2))))) (factors (F := Ideal) (m ((c : Thread nD τ).loc main_arg2)))) (factors (F := Ideal) (m ((c : Thread nD τ).loc main_arg2))))) := by
  rw [pass2_rows, at7_rows, at7_arg1, at7_arg2]
theorem at8_weights (c : Dev nD) : W8 m ρ c (Proc.devRef .tc main_v31) = transposed (F := Ideal) (m ((c : Thread nD τ).loc main_arg3)) := by
  rw [pass2_weights, at7_arg3]
theorem at8_factors (c : Dev nD) : W8 m ρ c (Proc.devRef .tc main_v7) = (factors (F := Ideal) (m ((c : Thread nD τ).loc main_arg2))) :=
  (pass2_factors m ρ c).trans (at7_factors m ρ c)

/-! ## After the projecting launch: the result -/

/-- The result array ends holding the whole computation of the four arguments. -/
theorem result_value (c : Dev nD) :
    W9 m ρ c (Proc.devRef .tc main_v32) = propagated (m ((c : Thread nD τ).loc main_arg0)) (m ((c : Thread nD τ).loc main_arg1)) (m ((c : Thread nD τ).loc main_arg2)) (m ((c : Thread nD τ).loc main_arg3)) := by
  refine (W9_arr m ρ c 3).trans ((projected_array (V8 m ρ) c).trans ?_)
  show project (rowScale (W8 m ρ c (Proc.devRef .tc main_v30)) (W8 m ρ c (Proc.devRef .tc main_v7))) (W8 m ρ c (Proc.devRef .tc main_v31)) = _
  rw [at8_rows, at8_factors, at8_weights]
  unfold propagated
  rfl

end Cert.KernelIdeal.Dense

end
-- ==== Proof.ReferenceValue.lean ====
/-
  The reference program computes the same function of its four arguments.

  The reference is one host program: the same factors, then twice (scale, message pass, scale), then the product with
  the transposed weights. Its factors, its two message passes and its transposition are, operation for operation, the
  kernel program's host expressions: for any interpretation of the floats its composed term is

      product (mul (pass (mul (mul (pass (mul f B)) B) B)) B) (transposed w),      B = the factors' column broadcast along both axes.

  On exact values each multiply by `B` is the row scaling and the product is the projection, so the term is
  `scale, pass, scale, scale, pass, scale, project` of the arguments: the kernel program's function.
-/
import proofs.«135309_j20340965114307_1_alg».proof.Proof.Gen.ReferenceIdeal.Run
import proofs.«135309_j20340965114307_1_alg».proof.Proof.Gen.ReferenceIdeal.Read
import proofs.«135309_j20340965114307_1_alg».proof.Proof.ResultValue

set_option maxRecDepth 16384

noncomputable section

namespace Cert.ReferenceIdeal.RefValue

open Idealize.ShloMosaic Idealize.ShloMosaic.TcCoe Idealize.SL.Sem
open Cert.ReferenceIdeal Cert.ReferenceIdeal.Gen Cert.GraphProp
open Cert.KernelIdeal.Dense (factors pass transposed propagated)

/-- For any floats: the reference's composed term with its factors, message passes and transposition named. -/
theorem reference_shape {F : FTy → Type} [FloatOps F] (a0 : FVec F S50000x64 .f32) (a1 a2 : IVec S800000 32)
    (a3 : FVec F S64x64 .f32) :
    Cert.ReferenceIdeal.Read.val_main_v37 (F := F) a0 a1 a2 a3
      = Host.dotGeneral (F := F) dot_S50000x64_S64x64_S50000x64_1_0_0_1_n_n none
          (mulf (pass a1 a2 (mulf (mulf (pass a1 a2 (mulf a0 (broadcastInDim S50000x64 ![0, 1] bcast_S50000x1_S50000x64_0_1 (factors a2)))) (broadcastInDim S50000x64 ![0, 1] bcast_S50000x1_S50000x64_0_1 (factors a2))) (broadcastInDim S50000x64 ![0, 1] bcast_S50000x1_S50000x64_0_1 (factors a2))))
            (broadcastInDim S50000x64 ![0, 1] bcast_S50000x1_S50000x64_0_1 (factors a2)))
          (transposed a3) :=
  (Cert.ReferenceIdeal.Read.val_main_v37_eq a0 a1 a2 a3).symm.trans (by rfl)

/-- On exact values the reference's result is the propagation of its arguments. -/
theorem reference_eq (a0 : FVec Ideal S50000x64 .f32) (a1 a2 : IVec S800000 32) (a3 : FVec Ideal S64x64 .f32) :
    Cert.ReferenceIdeal.Read.val_main_v37 (F := Ideal) a0 a1 a2 a3 = propagated a0 a1 a2 a3 := by
  rw [reference_shape,
    hostProject_eq dot_S50000x64_S64x64_S50000x64_1_0_0_1_n_n rfl rfl Cert.ReferenceIdeal.Read.lhs_main_v37_0
      Cert.ReferenceIdeal.Read.lhs_main_v37_1 Cert.ReferenceIdeal.Read.rhs_main_v37_0 Cert.ReferenceIdeal.Read.rhs_main_v37_1,
    hostScale_eq, hostScale_eq, hostScale_eq, hostScale_eq]
  unfold propagated
  rfl

end Cert.ReferenceIdeal.RefValue

end
-- ==== Proof.lean ====
/-
  A two-hop symmetric-normalised graph propagation followed by a linear projection: the kernel program and its
  reference compute the same array at the exact extended reals.

  Both programs compute every node's factor (its number of incoming edges, at least one, to the power -1/2), then

      scale, pass, scale, scale, pass, scale, project by the transposed weights

  where a scaling multiplies every node's row by the node's factor, a message pass adds the rows at the edges' sources
  into the rows at the edges' destinations, and the projection multiplies every row by a 64 x 64 matrix. The reference
  does all of it in host operations. The kernel program does the factors, the message passes and the transposition in
  the same host operations, and each dense step in a launch over ten blocks of 5000 nodes, the last scaling fused with the
  projection on the matrix unit (whose narrowing of its operands is the identity on exact values, and whose zero
  accumulator adds nothing). A launch's blocks tile its output, so each launch is its dense step on whole arrays
  (FirstScaling, SecondScaling, ThirdScaling, Projection); followed through the program's boundaries this gives the
  kernel's result as one function of the arguments (ResultValue), held by the result buffer at the end of every fair
  execution (ResultRun); and the reference's composed term is that same function (ReferenceValue). No law of arithmetic
  beyond reading a product into a zero accumulator as a plain sum is needed, so the inputs' finiteness is never used.
  The idealized kernel is the kernel's own text read at exact values: nothing was rewritten, and that claim is trivial.
-/
import proofs.«135309_j20340965114307_1_alg».proof.Defs
import proofs.«135309_j20340965114307_1_alg».proof.Proof.Gen.Kernel
import proofs.«135309_j20340965114307_1_alg».proof.Proof.Gen.Kernel.Skeleton
import proofs.«135309_j20340965114307_1_alg».proof.Proof.Gen.Kernel.Launch
import proofs.«135309_j20340965114307_1_alg».proof.Proof.Gen.Kernel.Points
import proofs.«135309_j20340965114307_1_alg».proof.Proof.Gen.Kernel.Frame
import proofs.«135309_j20340965114307_1_alg».proof.Proof.Gen.KernelIdeal
import proofs.«135309_j20340965114307_1_alg».proof.Proof.Gen.KernelIdeal.Skeleton
import proofs.«135309_j20340965114307_1_alg».proof.Proof.Gen.KernelIdeal.Launch
import proofs.«135309_j20340965114307_1_alg».proof.Proof.Gen.KernelIdeal.Points
import proofs.«135309_j20340965114307_1_alg».proof.Proof.Gen.KernelIdeal.Frame
import proofs.«135309_j20340965114307_1_alg».proof.Proof.Gen.ReferenceIdeal
import proofs.«135309_j20340965114307_1_alg».proof.Proof.Gen.ReferenceIdeal.Run
import proofs.«135309_j20340965114307_1_alg».proof.Proof.Gen.ReferenceIdeal.Read
import proofs.«135309_j20340965114307_1_alg».proof.Proof.Gen.Pre_finite_inputs
import proofs.«135309_j20340965114307_1_alg».proof.Proof.ResultRun
import proofs.«135309_j20340965114307_1_alg».proof.Proof.ResultValue
import proofs.«135309_j20340965114307_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading at exact values. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at exact values. -/
theorem preserves : Cert.preserves_Kernel_KernelIdeal := trivial

/-- From memories agreeing on the arguments both programs end with the propagation of those arguments in their result. -/
theorem algebraic : Cert.algebraic_KernelIdeal_ReferenceIdeal := by
  intro m ρ m' ρ' _ hagree
  refine ⟨fun c => Cert.KernelIdeal.Dense.propagated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Dense.result_value m ρ c), (h c).2⟩)
      (Cert.KernelIdeal.Dense.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v37_eq _ _ _ _).trans (Cert.ReferenceIdeal.RefValue.reference_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
